-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x256 : Shape := ⟨3, ![512, 256, 256]⟩
abbrev S_ : Shape := ⟨0, ![]⟩

class Facts : Prop where
  bcast_S_S512x256x256 : S_.BroadcastsInDim S512x256x256 (![] : Fin 0 → Fin S512x256x256.rank)
  reducesTo_S512x256x256_S_d0_1_2 : S512x256x256.ReducesTo [0, 1, 2] S_
  h_S_ : 0 < S_.numel

variable [Facts]

def fn {F : FTy → Type} [FloatOps F] (main_arg0 : FVec F S512x256x256 .f32) : IVec S_ 1 :=
  let main_v0 : FVec F S512x256x256 .f32 := Host.absf main_arg0
  let main_cst : FVec F S_ .f32 := constant S_ .f32 0x7F800000#32
  let main_v1 : FVec F S512x256x256 .f32 := broadcastInDim S512x256x256 ![] bcast_S_S512x256x256 main_cst
  let main_v2 : IVec S512x256x256 1 := cmpf .olt main_v0 main_v1
  let main_c : IVec S_ 1 := constantI S_ 1 1#1
  let main_v3 : IVec S_ 1 := (fun x v => Host.reduce IntOp.andi x v reducesTo_S512x256x256_S_d0_1_2 h_S_) main_v2 main_c
  main_v3
-- ==== Kernel.lean ====
abbrev S512x256x256 : Shape := ⟨3, ![512, 256, 256]⟩
abbrev S16x256x256 : Shape := ⟨3, ![16, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256x256, .f32⟩
  | .hbm, ⟨1, _⟩ => ⟨S512x256x256, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | _, _ => ⟨S512x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16x256x256_S16x256x256_0_0_0 : ∀ a, (![0, 0, 0] : Fin 3 → Nat) a + S16x256x256.size a ≤ S16x256x256.size a
  h_S16x256x256 : 0 < S16x256x256.numel
  iota_S16x256x256_d1_w32 : S16x256x256.Iotas .tc 32 [1]
  rotates_S16x256x256_d1 : S16x256x256.Rotates 1 none
  iota_S16x256x256_d2_w32 : S16x256x256.Iotas .tc 32 [2]
  rotates_S16x256x256_d2 : S16x256x256.Rotates 2 none
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S512x256x256.size a
  hwx0_0 : ∀ i : grid0.Coords, EltTy.bits .f32 = 32 ∨ (Rect.block (s := S512x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S512x256x256.size a
  hwx0_1 : ∀ i : grid0.Coords, EltTy.bits .f32 = 32 ∨ (Rect.block (s := S512x256x256) S16x256x256.size (cc0_transform_1 i) (hinb0_1 i)).WholeWords (EltTy.packing .f32)

variable [Facts₀]

abbrev win0_0 : Pipeline.Window sig grid0 :=
  Pipeline.Window.ofSpec (Memref.whole main_arg0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256x256 : Shape := ⟨3, ![512, 256, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S512x256x256, .f32⟩
  | .hbm, ⟨1, _⟩ => ⟨S_, .f32⟩
  | .hbm, ⟨2, _⟩ => ⟨S_, .f32⟩
  | .hbm, ⟨3, _⟩ => ⟨S512x256x256, .f32⟩
  | .hbm, ⟨4, _⟩ => ⟨S_, .f32⟩
  | .hbm, ⟨5, _⟩ => ⟨S_, .f32⟩
  | .hbm, ⟨6, _⟩ => ⟨S512x256x256, .f32⟩
  | .hbm, ⟨7, _⟩ => ⟨S512x256x256, .f32⟩
  | _, _ => ⟨S512x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_call1_cst : Ref sig .tc := ⟨.hbm, 4, rfl⟩
abbrev main_call1_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S512x256x256_S512x256x256_w1s1p0_0_w256s1p255_0_w1s1p0_0 : S512x256x256.ReduceWindows (![1, 256, 1] : Fin 3 → Nat) ![1, 1, 1] ![0, 255, 0] ![0, 0, 0] S512x256x256
  h_S_ : 0 < S_.numel
  reduceWindows_S512x256x256_S512x256x256_w1s1p0_0_w1s1p0_0_w256s1p255_0 : S512x256x256.ReduceWindows (![1, 1, 256] : Fin 3 → Nat) ![1, 1, 1] ![0, 0, 255] ![0, 0, 0] S512x256x256

variable [Facts₀]

class Facts : Prop extends Facts₀ where

variable [Facts]
-- ==== Proof.LibScanLaw.lean ====
/-
  Maxima over a window of a finite sequence, said by their upper bounds.

  For a sequence `g : Fin n → α` in a linear order with a least element, the greatest of `g k` over the
  `k ≤ h` that lie within `L` of `h` (the window of width `L` ending at `h`, cut off at the start of the
  sequence) is the one `M` whose upper bounds are exactly the common upper bounds of those entries
  (`IsWinMax g L h M`); such an `M` is unique. Three facts are proved about it:

  * a window of width one holds the entry itself;
  * DOUBLING: if `f` holds the maxima of width `L`, then `max (f h) (f (h - L))` — or `max (f h) ⊥` when `h < L`,
    the shifted entry falling before the start — is the maximum of width `2 L` at `h`, because the window of
    width `2 L` ending at `h` is the union of the one of width `L` ending at `h` and the one ending at `h - L`;
  * a window at least as wide as the sequence is the whole prefix `k ≤ h` (`IsPrefMax`).

  And one fact about a left fold of `max`: its upper bounds are those of its start value and of every entry
  folded in — so a fold from `⊥` over a list of entries is the greatest of them, whatever the order.
-/
import Mathlib.Order.Lattice
import Mathlib.Order.BoundedOrder.Basic
import Mathlib.Order.Basic
import Mathlib.Data.Fin.Basic
import Mathlib.Tactic

namespace Cert.Lib.Scan

variable {α : Type} [LinearOrder α] [OrderBot α] {n : ℕ}

/-- `M` is the greatest of the `g k` with `k ≤ h < k + L`: its upper bounds are their common upper bounds. -/
def IsWinMax (g : Fin n → α) (L : ℕ) (h : Fin n) (M : α) : Prop :=
  ∀ z, M ≤ z ↔ ∀ k : Fin n, k.val ≤ h.val → h.val < k.val + L → g k ≤ z

/-- `M` is the greatest of the `g k` with `k ≤ h`. -/
def IsPrefMax (g : Fin n → α) (h : Fin n) (M : α) : Prop :=
  ∀ z, M ≤ z ↔ ∀ k : Fin n, k.val ≤ h.val → g k ≤ z

/-- Two values with the same upper bounds are equal. -/
theorem IsPrefMax.unique {g : Fin n → α} {h : Fin n} {M M' : α} (hM : IsPrefMax g h M) (hM' : IsPrefMax g h M') :
    M = M' :=
  eq_of_forall_ge_iff fun z => (hM z).trans (hM' z).symm

/-- The prefix maximum depends only on the entries of the prefix. -/
theorem IsPrefMax.congr {g g' : Fin n → α} {h : Fin n} {M : α} (hM : IsPrefMax g h M)
    (hg : ∀ k : Fin n, k.val ≤ h.val → g k = g' k) : IsPrefMax g' h M := fun z =>
  (hM z).trans ⟨fun H k hk => hg k hk ▸ H k hk, fun H k hk => (hg k hk).symm ▸ H k hk⟩

/-- A window of width one holds the entry itself. -/
theorem isWinMax_one (g : Fin n → α) (h : Fin n) : IsWinMax g 1 h (g h) := by
  intro z
  constructor
  · intro hz k hk hk'
    have : k = h := Fin.ext (by omega)
    subst this
    exact hz
  · intro H
    exact H h le_rfl (by omega)

/-- DOUBLING. The window of width `2 L` ending at `h` is the window of width `L` ending at `h` together with the
    one ending at `h - L` (empty when `h < L`). `y` is the shifted entry: `f` at `h - L`, or `⊥` before the start. -/
theorem IsWinMax.double {g : Fin n → α} {L : ℕ} {f : Fin n → α} (hf : ∀ h, IsWinMax g L h (f h)) (h : Fin n) (y : α)
    (hy : (L ≤ h.val → ∃ k : Fin n, k.val = h.val - L ∧ y = f k) ∧ (h.val < L → y = ⊥)) :
    IsWinMax g (2 * L) h (max (f h) y) := by
  intro z
  rw [max_le_iff, hf h z]
  by_cases hL : L ≤ h.val
  · obtain ⟨k0, hk0, hyk⟩ := hy.1 hL
    clear hy
    subst hyk
    rw [hf k0 z]
    constructor
    · rintro ⟨H1, H2⟩ k hk hk'
      by_cases hc : h.val < k.val + L
      · exact H1 k hk hc
      · exact H2 k (by omega) (by omega)
    · intro H
      exact ⟨fun k hk _ => H k hk (by omega), fun k hk hk' => H k (by omega) (by omega)⟩
  · have hy' : y = ⊥ := hy.2 (by omega)
    clear hy
    subst hy'
    constructor
    · rintro ⟨H1, -⟩ k hk _
      exact H1 k hk (by omega)
    · intro H
      exact ⟨fun k hk _ => H k hk (by omega), bot_le⟩

/-- A window at least as wide as the sequence is the whole prefix. -/
theorem IsWinMax.toPref {g : Fin n → α} {L : ℕ} {h : Fin n} {M : α} (hM : IsWinMax g L h M) (hL : n ≤ L) :
    IsPrefMax g h M := fun z =>
  (hM z).trans ⟨fun H k hk => H k hk (by have := h.isLt; omega), fun H k hk _ => H k hk⟩

/-- The upper bounds of a left fold of `max` are those of its start value and of every entry folded in. -/
theorem foldl_max_le_iff {ι : Type} (φ : ι → α) (l : List ι) (b z : α) :
    l.foldl (fun r a => max r (φ a)) b ≤ z ↔ b ≤ z ∧ ∀ a ∈ l, φ a ≤ z := by
  induction l generalizing b with
  | nil => simp
  | cons a l ih =>
    rw [List.foldl_cons, ih, max_le_iff]
    constructor
    · rintro ⟨⟨hb, ha⟩, hl⟩
      exact ⟨hb, fun x hx => by
        rcases List.mem_cons.mp hx with rfl | hx
        · exact ha
        · exact hl x hx⟩
    · rintro ⟨hb, hl⟩
      exact ⟨⟨hb, hl a (List.mem_cons_self ..)⟩, fun x hx => hl x (List.mem_cons_of_mem _ hx)⟩

end Cert.Lib.Scan
-- ==== Proof.Spec.lean ====
/-
  The function both programs compute, stated once.

  For an array `x` of shape [n0, 256, 256] (a stack of n0 images, rows then columns) over the extended reals:
  `cummaxH x` holds at (c, h, w) the greatest of `x (c, k, w)` over the rows `k ≤ h` (a running maximum down each
  column), `cummaxW x` at (c, h, w) the greatest of `x (c, h, k)` over the columns `k ≤ w` (a running maximum along
  each row), and the result is `G x = M + M` with `M = cummaxW (cummaxH x)`: twice the greatest entry of the
  rectangle of rows `≤ h` and columns `≤ w` of image `c`. The least element `⊥ = -∞` is the maximum of no entry.

  Each running maximum is characterised by its upper bounds (`Cert.Lib.Scan.IsPrefMax`), which is how the kernel's
  doubling scan and the reference's window fold are each shown to compute it. Images do not interact: the function
  on a stack is the function on each sub-stack (`G_block`), which is what lets the kernel work sixteen images at a time.
-/
import Idealize.ShloMosaic.PureOps.Ideal
import Idealize.ShloMosaic.Lib.ValueIdx
import proofs.«150235_j66623532695961_1_alg».proof.Proof.LibScanLaw

noncomputable section

namespace Cert.Spec

open Idealize.ShloMosaic Idealize.ShloMosaic.ValueIdx Cert.Lib.Scan

/-- The shape [n0, 256, 256]. -/
abbrev Stack (n0 : ℕ) : Shape := ⟨3, ![n0, 256, 256]⟩

variable {n0 : ℕ}

/-- Running maximum down the rows: at (c, h, w) the greatest of `x (c, k, w)`, `k ≤ h`. -/
def cummaxH (x : (Stack n0).Idx → EReal) : (Stack n0).Idx → EReal := fun j =>
  (Finset.univ.filter fun k : Fin 256 => k.val ≤ (j 1).val).sup fun k => x (ix3 (j 0) k (j 2))

/-- Running maximum along the columns: at (c, h, w) the greatest of `x (c, h, k)`, `k ≤ w`. -/
def cummaxW (x : (Stack n0).Idx → EReal) : (Stack n0).Idx → EReal := fun j =>
  (Finset.univ.filter fun k : Fin 256 => k.val ≤ (j 2).val).sup fun k => x (ix3 (j 0) (j 1) k)

/-- The result: twice the greatest entry of the rectangle of rows `≤ h` and columns `≤ w`. -/
def G (x : (Stack n0).Idx → EReal) : (Stack n0).Idx → EReal := fun j =>
  cummaxW (cummaxH x) j + cummaxW (cummaxH x) j

theorem cummaxH_isPrefMax (x : (Stack n0).Idx → EReal) (c : Fin n0) (h w : Fin 256) :
    IsPrefMax (fun k : Fin 256 => x (ix3 c k w)) h (cummaxH x (ix3 c h w)) := by
  intro z
  show ((Finset.univ.filter fun k : Fin 256 => k.val ≤ h.val).sup fun k => x (ix3 c k w)) ≤ z ↔ _
  rw [Finset.sup_le_iff]
  exact ⟨fun H k hk => H k (Finset.mem_filter.mpr ⟨Finset.mem_univ _, hk⟩), fun H k hk => H k (Finset.mem_filter.mp hk).2⟩

theorem cummaxW_isPrefMax (x : (Stack n0).Idx → EReal) (c : Fin n0) (h w : Fin 256) :
    IsPrefMax (fun k : Fin 256 => x (ix3 c h k)) w (cummaxW x (ix3 c h w)) := by
  intro z
  show ((Finset.univ.filter fun k : Fin 256 => k.val ≤ w.val).sup fun k => x (ix3 c h k)) ≤ z ↔ _
  rw [Finset.sup_le_iff]
  exact ⟨fun H k hk => H k (Finset.mem_filter.mpr ⟨Finset.mem_univ _, hk⟩), fun H k hk => H k (Finset.mem_filter.mp hk).2⟩

/-- A function with the upper bounds of the row-wise running maximum at every index IS it. -/
theorem eq_cummaxH {x y : (Stack n0).Idx → EReal}
    (hy : ∀ (c : Fin n0) (h w : Fin 256), IsPrefMax (fun k : Fin 256 => x (ix3 c k w)) h (y (ix3 c h w))) : y = cummaxH x := by
  funext j
  obtain ⟨c, h, w, rfl⟩ : ∃ (c : Fin n0) (h w : Fin 256), j = ix3 c h w := ⟨j 0, j 1, j 2, eq_ix3 j⟩
  exact (hy c h w).unique (cummaxH_isPrefMax x c h w)

/-- A function with the upper bounds of the column-wise running maximum at every index IS it. -/
theorem eq_cummaxW {x y : (Stack n0).Idx → EReal}
    (hy : ∀ (c : Fin n0) (h w : Fin 256), IsPrefMax (fun k : Fin 256 => x (ix3 c h k)) w (y (ix3 c h w))) : y = cummaxW x := by
  funext j
  obtain ⟨c, h, w, rfl⟩ : ∃ (c : Fin n0) (h w : Fin 256), j = ix3 c h w := ⟨j 0, j 1, j 2, eq_ix3 j⟩
  exact (hy c h w).unique (cummaxW_isPrefMax x c h w)

/-- IMAGES DO NOT INTERACT. If `y` is the sub-stack of `x` that starts at image `o` (`y (c, h, w) = x (o + c, h, w)`), then
    the result on `y` is the result on `x` read at the same images. -/
theorem G_block {n1 : ℕ} (x : (Stack n0).Idx → EReal) (y : (Stack n1).Idx → EReal) (e : Fin n1 → Fin n0)
    (hy : ∀ (c : Fin n1) (h w : Fin 256), y (ix3 c h w) = x (ix3 (e c) h w)) (c : Fin n1) (h w : Fin 256) :
    G y (ix3 c h w) = G x (ix3 (e c) h w) := by
  have hH : ∀ (c : Fin n1) (h w : Fin 256), cummaxH y (ix3 c h w) = cummaxH x (ix3 (e c) h w) := fun c h w =>
    ((cummaxH_isPrefMax y c h w).congr fun k _ => hy c k w).unique (cummaxH_isPrefMax x (e c) h w)
  have hW : cummaxW (cummaxH y) (ix3 c h w) = cummaxW (cummaxH x) (ix3 (e c) h w) :=
    ((cummaxW_isPrefMax (cummaxH y) c h w).congr fun k _ => hH c h k).unique (cummaxW_isPrefMax (cummaxH x) (e c) h w)
  show cummaxW (cummaxH y) (ix3 c h w) + cummaxW (cummaxH y) (ix3 c h w) = cummaxW (cummaxH x) (ix3 (e c) h w) + cummaxW (cummaxH x) (ix3 (e c) h w)
  rw [hW]

end Cert.Spec

end
-- ==== Proof.KernelStep.lean ====
/-
  One step of the kernel's doubling scan, read at an index, at the ideal values.

  The kernel works on a block of sixteen images, shape [16, 256, 256]. A scan step with shift `s` along the rows takes a
  block `v`, turns it by `s` rows (row `h` of the turned block is row `h - s` of `v`, the first `s` rows coming round from
  the end), replaces those first `s` rows — the ones with row number `< s`, found by comparing a row counter with `s` —
  by `-∞`, and takes the entrywise maximum with `v`. So at (c, h, w) the step reads
        max (v (c, h, w)) (v (c, h - s, w))   when s ≤ h,      max (v (c, h, w)) ⊥   otherwise
  (`stepH_apply`), and likewise along the columns (`stepW_apply`). By the doubling law (`Cert.Lib.Scan.IsWinMax.double`) a
  step with shift `L` turns maxima over windows of width `L` into maxima over windows of width `2 L`.
-/
import Idealize.ShloMosaic.PureOps
import Idealize.ShloMosaic.PureOps.Ideal
import Idealize.ShloMosaic.Lib.ValueIdx
import Idealize.ShloMosaic.Lib.KernelVsHost
import Idealize.ShloMosaic.Lib.Pipeline.Value
import Idealize.ShloMosaic.Lib.Affine
import proofs.«150235_j66623532695961_1_alg».proof.Proof.Spec

noncomputable section

namespace Cert.KernelStep

open Idealize.ShloMosaic Idealize.ShloMosaic.ValueIdx Cert.Lib.Scan Cert.Spec

/-- The block's shape, [16, 256, 256]. -/
abbrev B : Shape := Stack 16

/-- The kernel's `-∞` literal is the least extended real. -/
theorem negInf : (Scalar.ofBits (F := Ideal) .f32 0xFF800000#32 : EReal) = ⊥ := by
  show Ideal.ofBits .f32 0xFF800000#32 = ⊥
  simp [Ideal.ofBits, Ideal.ieee]

/-- A small counter read as a signed 32-bit word is itself. -/
theorem toInt_small (n : ℕ) (hn : n < 256) : (BitVec.ofNat 32 n).toInt = (n : ℤ) := by
  rw [BitVec.toInt_eq_toNat_cond, BitVec.toNat_ofNat]
  have h1 : n % 2 ^ 32 = n := Nat.mod_eq_of_lt (by omega)
  rw [h1]
  have h2 : 2 * n < 2 ^ 32 := by omega
  rw [if_pos h2]

/-- Choosing by "counter ≥ shift" (a signed comparison of two small words) is choosing by `s ≤ h`. -/
theorem select_sge {α : Type} (h s : ℕ) (hh : h < 256) (hs : s < 256) (a b : α) :
    Scalar.select (IntOp.cmpi .sge (BitVec.ofNat 32 h) (BitVec.ofNat 32 s)) a b = if s ≤ h then a else b := by
  unfold Scalar.select
  by_cases hsh : s ≤ h
  · have : IntOp.cmpi .sge (BitVec.ofNat 32 h) (BitVec.ofNat 32 s) = (1 : BitVec 1) :=
      IntOp.cmpi_sge.mpr (by rw [toInt_small s hs, toInt_small h hh]; exact_mod_cast hsh)
    rw [if_pos this, if_pos hsh]
  · have : ¬ IntOp.cmpi .sge (BitVec.ofNat 32 h) (BitVec.ofNat 32 s) = (1 : BitVec 1) := fun hc => hsh (by
      have := IntOp.cmpi_sge.mp hc
      rw [toInt_small s hs, toInt_small h hh] at this
      exact_mod_cast this)
    rw [if_neg this, if_neg hsh]

/-! ## Along the rows (axis 1) -/

/-- A scan step with shift `s` along the rows, as the kernel writes it. -/
def stepH (hi : B.Iotas .tc 32 [1]) (hr : B.Rotates 1 none) (s : BitVec 32) (v : FVec Ideal B .f32) : FVec Ideal B .f32 :=
  maximumf v (select (cmpi .sge (iota .tc B 32 [1] hi) (broadcast B s)) (dynamicRotate 1 s none v hr)
    (broadcast B (Scalar.ofBits (F := Ideal) .f32 0xFF800000#32)))

/-- The step at (c, h, w): the entry, against the entry `s` rows up when there is one. -/
theorem stepH_apply (hi : B.Iotas .tc 32 [1]) (hr : B.Rotates 1 none) (s : ℕ) (hs : s < 256) (v : FVec Ideal B .f32)
    (c : Fin 16) (h w : Fin 256) :
    stepH hi hr (BitVec.ofNat 32 s) v (ix3 c h w)
      = max (v (ix3 c h w)) (if hsh : s ≤ h.val then v (ix3 c ⟨h.val - s, by omega⟩ w) else ⊥) := by
  unfold stepH
  rw [maximumf_apply, select_apply]
  show max (v (ix3 c h w)) (Scalar.select (IntOp.cmpi .sge (iota .tc B 32 [1] hi (ix3 c h w)) (BitVec.ofNat 32 s)) _ _) = _
  rw [iota_single_apply]
  show max (v (ix3 c h w)) (Scalar.select (IntOp.cmpi .sge (BitVec.ofNat 32 h.val) (BitVec.ofNat 32 s)) _ _) = _
  rw [select_sge h.val s h.isLt hs, broadcast_apply, negInf]
  congr 1
  by_cases hsh : s ≤ h.val
  · rw [if_pos hsh, dif_pos hsh]
    refine dynamicRotate_apply 1 (BitVec.ofNat 32 s) v hr (ix3 c h w) (ix3 c ⟨h.val - s, by omega⟩ w) fun b => ?_
    have hs' : (BitVec.ofNat 32 s).toNat = s := by rw [BitVec.toNat_ofNat]; exact Nat.mod_eq_of_lt (by omega)
    have hh := h.isLt
    match b with
    | ⟨0, _⟩ => rfl
    | ⟨1, _⟩ =>
      show h.val - s = (h.val + 256 - (BitVec.ofNat 32 s).toNat % 256) % 256
      rw [hs']; omega
    | ⟨2, _⟩ => rfl
  · rw [if_neg hsh, dif_neg hsh]

/-- DOUBLING along the rows: a step with shift `L` turns maxima over `L` rows into maxima over `2 L` rows. -/
theorem stepH_double (hi : B.Iotas .tc 32 [1]) (hr : B.Rotates 1 none) (x : FVec Ideal B .f32) (L : ℕ) (hL : L < 256)
    (v : FVec Ideal B .f32)
    (hv : ∀ (c : Fin 16) (h w : Fin 256), IsWinMax (fun k : Fin 256 => x (ix3 c k w)) L h (v (ix3 c h w))) :
    ∀ (c : Fin 16) (h w : Fin 256),
      IsWinMax (fun k : Fin 256 => x (ix3 c k w)) (2 * L) h (stepH hi hr (BitVec.ofNat 32 L) v (ix3 c h w)) := by
  intro c h w
  rw [stepH_apply hi hr L hL v c h w]
  exact IsWinMax.double (f := fun k : Fin 256 => v (ix3 c k w)) (fun k => hv c k w) h _
    ⟨fun hle => ⟨⟨h.val - L, by omega⟩, rfl, by rw [dif_pos hle]⟩, fun hlt => by rw [dif_neg (by omega)]⟩

/-! ## Along the columns (axis 2) -/

/-- A scan step with shift `s` along the columns, as the kernel writes it. -/
def stepW (hi : B.Iotas .tc 32 [2]) (hr : B.Rotates 2 none) (s : BitVec 32) (v : FVec Ideal B .f32) : FVec Ideal B .f32 :=
  maximumf v (select (cmpi .sge (iota .tc B 32 [2] hi) (broadcast B s)) (dynamicRotate 2 s none v hr)
    (broadcast B (Scalar.ofBits (F := Ideal) .f32 0xFF800000#32)))

/-- The step at (c, h, w): the entry, against the entry `s` columns to the left when there is one. -/
theorem stepW_apply (hi : B.Iotas .tc 32 [2]) (hr : B.Rotates 2 none) (s : ℕ) (hs : s < 256) (v : FVec Ideal B .f32)
    (c : Fin 16) (h w : Fin 256) :
    stepW hi hr (BitVec.ofNat 32 s) v (ix3 c h w)
      = max (v (ix3 c h w)) (if hsw : s ≤ w.val then v (ix3 c h ⟨w.val - s, by omega⟩) else ⊥) := by
  unfold stepW
  rw [maximumf_apply, select_apply]
  show max (v (ix3 c h w)) (Scalar.select (IntOp.cmpi .sge (iota .tc B 32 [2] hi (ix3 c h w)) (BitVec.ofNat 32 s)) _ _) = _
  rw [iota_single_apply]
  show max (v (ix3 c h w)) (Scalar.select (IntOp.cmpi .sge (BitVec.ofNat 32 w.val) (BitVec.ofNat 32 s)) _ _) = _
  rw [select_sge w.val s w.isLt hs, broadcast_apply, negInf]
  congr 1
  by_cases hsw : s ≤ w.val
  · rw [if_pos hsw, dif_pos hsw]
    refine dynamicRotate_apply 2 (BitVec.ofNat 32 s) v hr (ix3 c h w) (ix3 c h ⟨w.val - s, by omega⟩) fun b => ?_
    have hs' : (BitVec.ofNat 32 s).toNat = s := by rw [BitVec.toNat_ofNat]; exact Nat.mod_eq_of_lt (by omega)
    have hw := w.isLt
    match b with
    | ⟨0, _⟩ => rfl
    | ⟨1, _⟩ => rfl
    | ⟨2, _⟩ =>
      show w.val - s = (w.val + 256 - (BitVec.ofNat 32 s).toNat % 256) % 256
      rw [hs']; omega
  · rw [if_neg hsw, dif_neg hsw]

/-- DOUBLING along the columns. -/
theorem stepW_double (hi : B.Iotas .tc 32 [2]) (hr : B.Rotates 2 none) (x : FVec Ideal B .f32) (L : ℕ) (hL : L < 256)
    (v : FVec Ideal B .f32)
    (hv : ∀ (c : Fin 16) (h w : Fin 256), IsWinMax (fun k : Fin 256 => x (ix3 c h k)) L w (v (ix3 c h w))) :
    ∀ (c : Fin 16) (h w : Fin 256),
      IsWinMax (fun k : Fin 256 => x (ix3 c h k)) (2 * L) w (stepW hi hr (BitVec.ofNat 32 L) v (ix3 c h w)) := by
  intro c h w
  rw [stepW_apply hi hr L hL v c h w]
  exact IsWinMax.double (f := fun k : Fin 256 => v (ix3 c h k)) (fun k => hv c h k) w _
    ⟨fun hle => ⟨⟨w.val - L, by omega⟩, rfl, by rw [dif_pos hle]⟩, fun hlt => by rw [dif_neg (by omega)]⟩

end Cert.KernelStep

end
-- ==== Proof.KernelBlock.lean ====
/-
  What the kernel's body stores, for one block of sixteen images.

  The body applies eight row steps with shifts 1, 2, 4, …, 128, then eight column steps with the same shifts, and adds
  the result to itself. Starting from windows of width one (the entries themselves), each step doubles the window
  (`Cert.KernelStep.stepH_double` / `stepW_double`), so after the eighth the windows have width 256 — the whole prefix:
  the row steps compute the running maximum down the rows (`scanH_eq`), the column steps the running maximum along
  the columns of THAT (`scanW_eq`), and the stored block is `G` of the loaded block (`pay_eq`).
-/
import proofs.«150235_j66623532695961_1_alg».proof.Proof.Gen.KernelIdeal.Skeleton
import proofs.«150235_j66623532695961_1_alg».proof.Proof.KernelStep

noncomputable section

namespace Cert.KernelBlock

open Idealize.ShloMosaic Idealize.ShloMosaic.ValueIdx Cert.Lib.Scan Cert.Spec Cert.KernelStep
open Cert.KernelIdeal Cert.KernelIdeal.Gen

/-- The eight row steps. -/
def scanH (v : FVec Ideal B .f32) : FVec Ideal B .f32 :=
  stepH iota_S16x256x256_d1_w32 rotates_S16x256x256_d1 128#32 (stepH iota_S16x256x256_d1_w32 rotates_S16x256x256_d1 64#32 (stepH iota_S16x256x256_d1_w32 rotates_S16x256x256_d1 32#32 (stepH iota_S16x256x256_d1_w32 rotates_S16x256x256_d1 16#32 (stepH iota_S16x256x256_d1_w32 rotates_S16x256x256_d1 8#32 (stepH iota_S16x256x256_d1_w32 rotates_S16x256x256_d1 4#32 (stepH iota_S16x256x256_d1_w32 rotates_S16x256x256_d1 2#32 (stepH iota_S16x256x256_d1_w32 rotates_S16x256x256_d1 1#32 v)))))))

/-- The eight column steps. -/
def scanW (v : FVec Ideal B .f32) : FVec Ideal B .f32 :=
  stepW iota_S16x256x256_d2_w32 rotates_S16x256x256_d2 128#32 (stepW iota_S16x256x256_d2_w32 rotates_S16x256x256_d2 64#32 (stepW iota_S16x256x256_d2_w32 rotates_S16x256x256_d2 32#32 (stepW iota_S16x256x256_d2_w32 rotates_S16x256x256_d2 16#32 (stepW iota_S16x256x256_d2_w32 rotates_S16x256x256_d2 8#32 (stepW iota_S16x256x256_d2_w32 rotates_S16x256x256_d2 4#32 (stepW iota_S16x256x256_d2_w32 rotates_S16x256x256_d2 2#32 (stepW iota_S16x256x256_d2_w32 rotates_S16x256x256_d2 1#32 v)))))))

/-- After eight doublings the window is the whole prefix: the row steps compute the running maximum down the rows. -/
theorem scanH_eq (x : FVec Ideal B .f32) : scanH x = cummaxH (n0 := 16) x := by
  refine eq_cummaxH fun c h w => ?_
  have w1 : ∀ (c : Fin 16) (h w : Fin 256), IsWinMax (fun k : Fin 256 => x (ix3 c k w)) 1 h (x (ix3 c h w)) :=
    fun c h w => isWinMax_one (fun k : Fin 256 => x (ix3 c k w)) h
  have w2 := stepH_double iota_S16x256x256_d1_w32 rotates_S16x256x256_d1 x 1 (by norm_num) _ w1
  have w4 := stepH_double iota_S16x256x256_d1_w32 rotates_S16x256x256_d1 x 2 (by norm_num) _ w2
  have w8 := stepH_double iota_S16x256x256_d1_w32 rotates_S16x256x256_d1 x 4 (by norm_num) _ w4
  have w16 := stepH_double iota_S16x256x256_d1_w32 rotates_S16x256x256_d1 x 8 (by norm_num) _ w8
  have w32 := stepH_double iota_S16x256x256_d1_w32 rotates_S16x256x256_d1 x 16 (by norm_num) _ w16
  have w64 := stepH_double iota_S16x256x256_d1_w32 rotates_S16x256x256_d1 x 32 (by norm_num) _ w32
  have w128 := stepH_double iota_S16x256x256_d1_w32 rotates_S16x256x256_d1 x 64 (by norm_num) _ w64
  have w256 := stepH_double iota_S16x256x256_d1_w32 rotates_S16x256x256_d1 x 128 (by norm_num) _ w128
  exact (w256 c h w).toPref (by norm_num)

/-- The column steps compute the running maximum along the columns. -/
theorem scanW_eq (x : FVec Ideal B .f32) : scanW x = cummaxW (n0 := 16) x := by
  refine eq_cummaxW fun c h w => ?_
  have w1 : ∀ (c : Fin 16) (h w : Fin 256), IsWinMax (fun k : Fin 256 => x (ix3 c h k)) 1 w (x (ix3 c h w)) :=
    fun c h w => isWinMax_one (fun k : Fin 256 => x (ix3 c h k)) w
  have w2 := stepW_double iota_S16x256x256_d2_w32 rotates_S16x256x256_d2 x 1 (by norm_num) _ w1
  have w4 := stepW_double iota_S16x256x256_d2_w32 rotates_S16x256x256_d2 x 2 (by norm_num) _ w2
  have w8 := stepW_double iota_S16x256x256_d2_w32 rotates_S16x256x256_d2 x 4 (by norm_num) _ w4
  have w16 := stepW_double iota_S16x256x256_d2_w32 rotates_S16x256x256_d2 x 8 (by norm_num) _ w8
  have w32 := stepW_double iota_S16x256x256_d2_w32 rotates_S16x256x256_d2 x 16 (by norm_num) _ w16
  have w64 := stepW_double iota_S16x256x256_d2_w32 rotates_S16x256x256_d2 x 32 (by norm_num) _ w32
  have w128 := stepW_double iota_S16x256x256_d2_w32 rotates_S16x256x256_d2 x 64 (by norm_num) _ w64
  have w256 := stepW_double iota_S16x256x256_d2_w32 rotates_S16x256x256_d2 x 128 (by norm_num) _ w128
  exact (w256 c h w).toPref (by norm_num)

/-- THE STORED BLOCK. The body's payload — its named pieces composed as the body composes them — is the sixteen
    steps and the final sum; so it is `G` of the loaded block. -/
theorem pay_eq (X : Vec Ideal S16x256x256 .f32) :
    k0_pay1 (F := Ideal) (k0_pay5 (k0_pay2 X) (iota .tc S16x256x256 32 [1] iota_S16x256x256_d1_w32) (k0_pay3 X) k0_pay4)
      (iota .tc S16x256x256 32 [2] iota_S16x256x256_d2_w32)
      (k0_pay6 (k0_pay2 X) (iota .tc S16x256x256 32 [1] iota_S16x256x256_d1_w32) (k0_pay3 X) k0_pay4) k0_pay7
    = G (n0 := 16) X := by
  have e : k0_pay1 (F := Ideal) (k0_pay5 (k0_pay2 X) (iota .tc S16x256x256 32 [1] iota_S16x256x256_d1_w32) (k0_pay3 X) k0_pay4)
      (iota .tc S16x256x256 32 [2] iota_S16x256x256_d2_w32)
      (k0_pay6 (k0_pay2 X) (iota .tc S16x256x256 32 [1] iota_S16x256x256_d1_w32) (k0_pay3 X) k0_pay4) k0_pay7
      = addf (scanW (scanH X)) (scanW (scanH X)) := rfl
  rw [e, scanH_eq, scanW_eq]
  rfl

end Cert.KernelBlock

end
-- ==== Proof.KernelValue.lean ====
/-
  The kernel's result array, whole.

  The grid has 32 points; point `t` stages images 16 t … 16 t + 15 of the argument (all rows, all columns), the body
  turns that block into `G` of it (`Cert.KernelBlock.pay_eq`), and the block is written back to the same images of the
  result. Images do not interact (`Cert.Spec.G_block`), so what point `t` writes is block `t` of `G` of the WHOLE
  argument array (`flushed_eq`); the 32 blocks cover the result array (`cover`: image `i` is in block `i / 16`); hence
  after the run the result array is `G` of the argument array (`final`, `run`).
-/
import proofs.«150235_j66623532695961_1_alg».proof.Proof.KernelIdealFrameP
import proofs.«150235_j66623532695961_1_alg».proof.Proof.KernelBlock
import Idealize.ShloMosaic.Lib.Pipeline.Value

noncomputable section

namespace Cert.KernelValue

open Cert.KernelIdeal Cert.KernelIdeal.Gen Cert.KernelIdeal.GenP Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the 32 grid points: the argument's window and the result's window sit at the
    same block of images, at block 0 of the rows and of the columns, and the image block's number is at most 31. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 31 :=
  (by decide +kernel : ∀ t : Fin grid0.N, _)

/-- Every block of sixteen images is SOME point's. -/
theorem idx_onto : ∀ q : Fin 32, ∃ t : Fin cfg0.N, win0_1.index t = ![q.val, 0, 0] :=
  (by decide +kernel : ∀ q : Fin 32, ∃ t : Fin grid0.N, win0_1.index t = ![q.val, 0, 0])

/-- `G` of a sub-stack that starts at image `o`, read at `j`, is `G` of the stack read at the index `i` whose image is
    `o + j's` and whose row and column are `j`'s. -/
theorem G_sub (x : (Stack 512).Idx → EReal) (y : (Stack 16).Idx → EReal) (e : Fin 16 → Fin 512)
    (hy : ∀ (c : Fin 16) (h w : Fin 256), y (ix3 c h w) = x (ix3 (e c) h w))
    (j : (Stack 16).Idx) (i : (Stack 512).Idx)
    (h0 : (i 0).val = (e (j 0)).val) (h1 : (i 1).val = (j 1).val) (h2 : (i 2).val = (j 2).val) :
    G y j = G x i := by
  obtain ⟨c, h, w, rfl⟩ : ∃ (c : Fin 16) (h w : Fin 256), j = ix3 c h w := ⟨j 0, j 1, j 2, eq_ix3 j⟩
  have hi : i = ix3 (e c) h w := by
    funext a
    match a with
    | ⟨0, _⟩ => exact Fin.ext h0
    | ⟨1, _⟩ => exact Fin.ext h1
    | ⟨2, _⟩ => exact Fin.ext h2
  rw [hi]
  exact G_block x y e hy c h w

/-- WHAT POINT `t` WRITES BACK is block `t` of `G` of the argument array as the region finds it. -/
theorem flushed_eq (c : Dev nD) (t : Fin cfg0.N) :
    (dats m 0 c).flushed 1 t
      = ((cfg0.win 1).blk t).view.read (Elt Ideal) (G (n0 := 512) (V m c main_arg0)) := by
  show (cfg0.win 1).cut (grid0.coords t) ((dats m 0 c).after 1 t) = _
  rw [after0_1]
  unfold out0_1
  rw [View.canon_unit_zero hz]
  simp only [View.ld_unit_zero (S := S16x256x256) hz]
  rw [Cert.KernelBlock.pay_eq]
  obtain ⟨e0, e1, e2, e3, e4, e5⟩ := idx_facts t
  funext j
  show G (n0 := 16) (iblk m c 0 t) j = G (n0 := 512) (V m c main_arg0) (((cfg0.win 1).blk t).view.emb j)
  refine G_sub (V m c main_arg0) (iblk m c 0 t)
    (fun c' => ⟨win0_1.index t (0 : Fin 3) * 16 + c'.val, by have := c'.isLt; omega⟩) (fun c' h w => ?_)
    j (((cfg0.win 1).blk t).view.emb j) ?_ ?_ ?_
  · -- the argument's block at point t, entry (c', h, w), is the array's entry at image 16·(block number) + c'
    show V m c main_arg0 (((cfg0.win 0).blk t).view.emb (ix3 c' h w)) = _
    refine congrArg (V m c main_arg0) (funext fun a => Fin.ext ?_)
    match a with
    | ⟨0, _⟩ => show win0_0.index t (0 : Fin 3) * 16 + 1 * c'.val = win0_1.index t (0 : Fin 3) * 16 + c'.val; omega
    | ⟨1, _⟩ => show win0_0.index t (1 : Fin 3) * 256 + 1 * h.val = h.val; omega
    | ⟨2, _⟩ => show win0_0.index t (2 : Fin 3) * 256 + 1 * w.val = w.val; omega
  · show win0_1.index t (0 : Fin 3) * 16 + 1 * (j 0).val = win0_1.index t (0 : Fin 3) * 16 + (j 0).val; omega
  · show win0_1.index t (1 : Fin 3) * 256 + 1 * (j 1).val = (j 1).val; omega
  · show win0_1.index t (2 : Fin 3) * 256 + 1 * (j 2).val = (j 2).val; omega

/-- An index of the array is in point `t`'s block iff each coordinate is in the block's range on its axis. -/
theorem mem_blk (t : Fin cfg0.N) (i : S512x256x256.Idx) :
    i ∈ ((cfg0.win 1).blk t).view.set ↔ ∀ a : Fin 3, win0_1.index t a * S16x256x256.size a ≤ (i a).val
      ∧ (i a).val < win0_1.index t a * S16x256x256.size a + S16x256x256.size a := by
  show i ∈ ((View.whole main_v0).slice (win0_1.rect t)).set ↔ _
  rw [View.set_slice_whole, Rect.mem_set_unit]
  exact Iff.rfl

/-- THE BLOCKS COVER THE ARRAY: image `i` lies in the block of the point whose block number is `i / 16`. -/
theorem cover (i : S512x256x256.Idx) :
    ∃ t : Fin cfg0.N, (cfg0.win 1).flush t = true ∧ i ∈ ((cfg0.win 1).blk t).view.set := by
  have hi0 : (i 0).val < 512 := (i 0).isLt
  have hi1 : (i 1).val < 256 := (i 1).isLt
  have hi2 : (i 2).val < 256 := (i 2).isLt
  obtain ⟨t, ht⟩ := idx_onto ⟨(i 0).val / 16, by omega⟩
  have q0 : win0_1.index t (0 : Fin 3) = (i 0).val / 16 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 16 ≤ (i 0).val ∧ (i 0).val < win0_1.index t (0 : Fin 3) * 16 + 16; omega
  | ⟨1, _⟩ => show win0_1.index t (1 : Fin 3) * 256 ≤ (i 1).val ∧ (i 1).val < win0_1.index t (1 : Fin 3) * 256 + 256; omega
  | ⟨2, _⟩ => show win0_1.index t (2 : Fin 3) * 256 ≤ (i 2).val ∧ (i 2).val < win0_1.index t (2 : Fin 3) * 256 + 256; omega

/-- THE ARRAY after the run is `G` of the argument array. -/
theorem final (c : Dev nD) :
    (dats m 0 c).arrAt 1 cfg0.N = G (n0 := 512) (m ((c : Thread nD τ).loc main_arg0)) :=
  (dats m 0 c).arrAt_eq_of_cover 1 (G (n0 := 512) (m ((c : Thread nD τ).loc main_arg0))) (fun t _ => flushed_eq m c t) cover

/-- The frame run re-posted: the result array at `G` of the argument array, the argument unchanged. -/
theorem run : θ_run defs (onTc (τ := τ) (main (F := Ideal))) ⟨m, fun _ => 0, ρ⟩ fun r => ∀ c : Dev nD,
      r.2.mem ((c : Thread nD τ).loc main_v0) = G (n0 := 512) (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelValue

end
-- ==== Proof.LibWindowMax.lean ====
/-
  A window fold of `max` (the host's `reduce_window` with a maximum body), by its upper bounds.

  At every index of the result a window is laid over the operand, extended by padding entries that hold the initial
  value, and the entries under it are folded with `max` from the initial value, one window position at a time in
  row-major order. The upper bounds of the outcome are those of the initial value and of what every window position
  contributes (`reduceWindow_max_le_iff`) — so the fold is the greatest of them, whatever the order —, where a position
  `q` contributes the operand's entry at `index · stride + q - padding` on every axis when that lies inside the
  operand, and the initial value otherwise (`winEntry`). For any shapes, windows, strides and paddings.
-/
import Idealize.ShloMosaic.PureOps
import Idealize.ShloMosaic.PureOps.Ideal
import proofs.«150235_j66623532695961_1_alg».proof.Proof.LibScanLaw

noncomputable section

namespace Cert.Lib.WindowMax

open Idealize.ShloMosaic Cert.Lib.Scan

/-! ## A window fold of max, by its upper bounds -/

section
variable {s t u : Shape}

/-- What the window position q contributes to the result at index j: the operand's entry at j · stride + q - lo
    on every axis where that lies inside the operand, the padding value v where it does not. -/
def winEntry (window strides lo : Fin s.rank → Nat) (x : s.Idx → EReal) (v : EReal) (hr : t.rank = s.rank) (j : t.Idx)
    (q : (⟨s.rank, window⟩ : Shape).Idx) : EReal :=
  @dite EReal (∀ a, lo a ≤ (j (a.cast hr.symm)).val * strides a + (q a).val
      ∧ (j (a.cast hr.symm)).val * strides a + (q a).val - lo a < s.size a) (Nat.decidableForallFin _)
    (fun hin => x (fun a => ⟨(j (a.cast hr.symm)).val * strides a + (q a).val - lo a, (hin a).2⟩))
    (fun _ => v)

/-- The upper bounds of a window fold of max are those of the padding value and of what every window position
    contributes: the fold runs once over each window position, in row-major order, and the order does not matter. -/
theorem reduceWindow_max_le_iff (window strides lo hi : Fin s.rank → Nat) (x : s.Idx → EReal) (init : u.Idx → EReal)
    (h : s.ReduceWindows window strides lo hi t) (hu : 0 < u.numel) (j : t.Idx) (z : EReal) :
    Host.reduceWindow (FloatOps.maximumf (F := Ideal) (φ := .f32)) window strides lo hi x init h hu j ≤ z ↔
      init (Shape.Idx.first hu) ≤ z ∧ ∀ q, winEntry window strides lo x (init (Shape.Idx.first hu)) h.1 j q ≤ z := by
  have e : Host.reduceWindow (FloatOps.maximumf (F := Ideal) (φ := .f32)) window strides lo hi x init h hu j
      = (List.finRange (⟨s.rank, window⟩ : Shape).numel).foldl (fun r n => max r
          (winEntry window strides lo x (init (Shape.Idx.first hu)) h.1 j ((⟨s.rank, window⟩ : Shape).rowMajor.symm n)))
          (init (Shape.Idx.first hu)) := rfl
  rw [e, foldl_max_le_iff]
  refine and_congr Iff.rfl ⟨fun H q => ?_, fun H n _ => H _⟩
  have := H ((⟨s.rank, window⟩ : Shape).rowMajor q) (List.mem_finRange _)
  rwa [Equiv.symm_apply_apply] at this

end

end Cert.Lib.WindowMax

end
-- ==== Proof.RefValue.lean ====
/-
  The reference's value.

  The reference takes, of an array of shape [512, 256, 256], a running maximum down the rows and then one along the
  columns, and adds the result to itself. Each running maximum is written as a window fold: at every index a window of
  256 positions along one axis, ending at the index, is laid over the array extended by 255 entries of the padding value
  before its start, and the entries under the window are folded with max from the padding value, which is -∞. A window
  position q along the axis reads entry (index + q - 255) where that is not negative and the padding otherwise. So the
  entries read at row h are those of the rows k ≤ h (k = h + q - 255 as q runs over 255 - h ≤ q ≤ 255), each once, and
  copies of -∞; the fold's upper bounds are therefore the common upper bounds of the rows k ≤ h, which is what
  characterises the running maximum. The same along the columns.
-/
import proofs.«150235_j66623532695961_1_alg».proof.Proof.ReferenceRunP
import proofs.«150235_j66623532695961_1_alg».proof.Proof.Spec
import proofs.«150235_j66623532695961_1_alg».proof.Proof.LibWindowMax
import Idealize.ShloMosaic.Lib.ValueIdx
import Idealize.ShloMosaic.Lib.IdealHost

noncomputable section

namespace Cert.RefValue

open Cert.ReferenceIdeal Cert.ReferenceIdeal.Gen Idealize.ShloMosaic Idealize.ShloMosaic.ValueIdx Cert.Lib.Scan Cert.Lib.WindowMax

/-! ## The two folds of the reference -/

/-- THE ROW FOLD. The window [1, 256, 1] with 255 padding entries before the rows: the position q = (0, q₁, 0) of the
    window at (c, h, w) reads row h + q₁ - 255 of column w of image c when 255 ≤ h + q₁ and the padding otherwise. Every
    row read is a row k ≤ h, and the row k ≤ h is read at q₁ = k + 255 - h. -/
theorem rows_isPrefMax (x : FVec Ideal S512x256x256 .f32) (init : S_.Idx → EReal)
    (hinit : init (Shape.Idx.first h_S_) = ⊥) (c : Fin 512) (h w : Fin 256) :
    IsPrefMax (fun k : Fin 256 => x (ix3 c k w)) h
      (Host.reduceWindow (FloatOps.maximumf (F := Ideal) (φ := .f32)) ![1, 256, 1] ![1, 1, 1] ![0, 255, 0] ![0, 0, 0] x init
        reduceWindows_S512x256x256_S512x256x256_w1s1p0_0_w256s1p255_0_w1s1p0_0 h_S_ (ix3 c h w)) := by
  intro z
  rw [reduceWindow_max_le_iff, hinit]
  have hh := h.isLt
  constructor
  · rintro ⟨-, H⟩ k hk
    have hkl := k.isLt
    have hq := H (ix3 (⟨0, Nat.one_pos⟩ : Fin 1) (⟨k.val + 255 - h.val, by omega⟩ : Fin 256) (⟨0, Nat.one_pos⟩ : Fin 1))
    unfold winEntry at hq
    rw [dif_pos (fun a => by
      match a with
      | ⟨0, _⟩ => exact (show 0 ≤ c.val * 1 + 0 ∧ c.val * 1 + 0 - 0 < 512 from by have := c.isLt; omega)
      | ⟨1, _⟩ => exact (show 255 ≤ h.val * 1 + (k.val + 255 - h.val) ∧ h.val * 1 + (k.val + 255 - h.val) - 255 < 256 from by omega)
      | ⟨2, _⟩ => exact (show 0 ≤ w.val * 1 + 0 ∧ w.val * 1 + 0 - 0 < 256 from by have := w.isLt; omega))] at hq
    refine (le_of_eq (congrArg x (funext fun a => ?_))).trans hq
    match a with
    | ⟨0, _⟩ => exact Fin.ext (show c.val = c.val * 1 + 0 - 0 by omega)
    | ⟨1, _⟩ => exact Fin.ext (show k.val = h.val * 1 + (k.val + 255 - h.val) - 255 by omega)
    | ⟨2, _⟩ => exact Fin.ext (show w.val = w.val * 1 + 0 - 0 by omega)
  · intro H
    refine ⟨bot_le, fun q => ?_⟩
    unfold winEntry
    split
    · rename_i hin
      have p0 : 0 < S512x256x256.rank := Nat.succ_pos 2
      have p1 : 1 < S512x256x256.rank := Nat.succ_lt_succ (Nat.succ_pos 1)
      have p2 : 2 < S512x256x256.rank := Nat.lt_succ_self 2
      have h0 : (q ⟨0, p0⟩).val < 1 := (q ⟨0, p0⟩).isLt
      have h2 : (q ⟨2, p2⟩).val < 1 := (q ⟨2, p2⟩).isLt
      have h1 : 255 ≤ h.val * 1 + (q ⟨1, p1⟩).val ∧ h.val * 1 + (q ⟨1, p1⟩).val - 255 < 256 := hin ⟨1, p1⟩
      have hk : h.val + (q ⟨1, p1⟩).val - 255 < 256 := by omega
      refine (le_of_eq (congrArg x (funext fun a => ?_))).trans (H ⟨_, hk⟩ (show h.val + (q ⟨1, p1⟩).val - 255 ≤ h.val by
        have := (q ⟨1, p1⟩).isLt
        have : (q ⟨1, p1⟩).val < 256 := this
        omega))
      match a with
      | ⟨0, _⟩ => exact Fin.ext (show c.val * 1 + (q ⟨0, p0⟩).val - 0 = c.val by omega)
      | ⟨1, _⟩ => exact Fin.ext (show h.val * 1 + (q ⟨1, p1⟩).val - 255 = h.val + (q ⟨1, p1⟩).val - 255 by omega)
      | ⟨2, _⟩ => exact Fin.ext (show w.val * 1 + (q ⟨2, p2⟩).val - 0 = w.val by omega)
    · exact bot_le

/-- THE COLUMN FOLD. The window [1, 1, 256] with 255 padding entries before the columns: the position q = (0, 0, q₂) of
    the window at (c, h, w) reads column w + q₂ - 255 of row h of image c when 255 ≤ w + q₂ and the padding otherwise.
    Every column read is a column k ≤ w, and the column k ≤ w is read at q₂ = k + 255 - w. -/
theorem cols_isPrefMax (x : FVec Ideal S512x256x256 .f32) (init : S_.Idx → EReal)
    (hinit : init (Shape.Idx.first h_S_) = ⊥) (c : Fin 512) (h w : Fin 256) :
    IsPrefMax (fun k : Fin 256 => x (ix3 c h k)) w
      (Host.reduceWindow (FloatOps.maximumf (F := Ideal) (φ := .f32)) ![1, 1, 256] ![1, 1, 1] ![0, 0, 255] ![0, 0, 0] x init
        reduceWindows_S512x256x256_S512x256x256_w1s1p0_0_w1s1p0_0_w256s1p255_0 h_S_ (ix3 c h w)) := by
  intro z
  rw [reduceWindow_max_le_iff, hinit]
  have hw := w.isLt
  constructor
  · rintro ⟨-, H⟩ k hk
    have hkl := k.isLt
    have hq := H (ix3 (⟨0, Nat.one_pos⟩ : Fin 1) (⟨0, Nat.one_pos⟩ : Fin 1) (⟨k.val + 255 - w.val, by omega⟩ : Fin 256))
    unfold winEntry at hq
    rw [dif_pos (fun a => by
      match a with
      | ⟨0, _⟩ => exact (show 0 ≤ c.val * 1 + 0 ∧ c.val * 1 + 0 - 0 < 512 from by have := c.isLt; omega)
      | ⟨1, _⟩ => exact (show 0 ≤ h.val * 1 + 0 ∧ h.val * 1 + 0 - 0 < 256 from by have := h.isLt; omega)
      | ⟨2, _⟩ => exact (show 255 ≤ w.val * 1 + (k.val + 255 - w.val) ∧ w.val * 1 + (k.val + 255 - w.val) - 255 < 256 from by omega))] at hq
    refine (le_of_eq (congrArg x (funext fun a => ?_))).trans hq
    match a with
    | ⟨0, _⟩ => exact Fin.ext (show c.val = c.val * 1 + 0 - 0 by omega)
    | ⟨1, _⟩ => exact Fin.ext (show h.val = h.val * 1 + 0 - 0 by omega)
    | ⟨2, _⟩ => exact Fin.ext (show k.val = w.val * 1 + (k.val + 255 - w.val) - 255 by omega)
  · intro H
    refine ⟨bot_le, fun q => ?_⟩
    unfold winEntry
    split
    · rename_i hin
      have p0 : 0 < S512x256x256.rank := Nat.succ_pos 2
      have p1 : 1 < S512x256x256.rank := Nat.succ_lt_succ (Nat.succ_pos 1)
      have p2 : 2 < S512x256x256.rank := Nat.lt_succ_self 2
      have h0 : (q ⟨0, p0⟩).val < 1 := (q ⟨0, p0⟩).isLt
      have h1 : (q ⟨1, p1⟩).val < 1 := (q ⟨1, p1⟩).isLt
      have h2 : 255 ≤ w.val * 1 + (q ⟨2, p2⟩).val ∧ w.val * 1 + (q ⟨2, p2⟩).val - 255 < 256 := hin ⟨2, p2⟩
      have hk : w.val + (q ⟨2, p2⟩).val - 255 < 256 := by omega
      refine (le_of_eq (congrArg x (funext fun a => ?_))).trans (H ⟨_, hk⟩ (show w.val + (q ⟨2, p2⟩).val - 255 ≤ w.val by
        have := (q ⟨2, p2⟩).isLt
        have : (q ⟨2, p2⟩).val < 256 := this
        omega))
      match a with
      | ⟨0, _⟩ => exact Fin.ext (show c.val * 1 + (q ⟨0, p0⟩).val - 0 = c.val by omega)
      | ⟨1, _⟩ => exact Fin.ext (show h.val * 1 + (q ⟨1, p1⟩).val - 0 = h.val by omega)
      | ⟨2, _⟩ => exact Fin.ext (show w.val * 1 + (q ⟨2, p2⟩).val - 255 = w.val + (q ⟨2, p2⟩).val - 255 by omega)
    · exact bot_le

/-! ## The result -/

/-- The padding value of both folds: the constant with the bit pattern of -∞, which is the least extended real. -/
theorem init_first :
    (broadcastInDim S_ ![] bcast_S_S_ (constant (F := Ideal) S_ .f32 0xFF800000#32)) (Shape.Idx.first h_S_) = (⊥ : EReal) := by
  rw [broadcastInDim_scalar_apply, constant_apply]
  simp [Ideal.ofBits, Ideal.ieee]

/-- The reference's result is twice the greatest entry of the rectangle of rows ≤ h and columns ≤ w: the first fold is
    the running maximum down the rows, the second the running maximum along the columns of that, and the last
    operation adds the outcome to itself. -/
theorem result_eq (x : FVec Ideal S512x256x256 .f32) :
    addf (Host.reduceWindow FloatOps.maximumf ![1, 1, 256] ![1, 1, 1] ![0, 0, 255] ![0, 0, 0] (Host.reduceWindow FloatOps.maximumf ![1, 256, 1] ![1, 1, 1] ![0, 255, 0] ![0, 0, 0] x (broadcastInDim S_ ![] bcast_S_S_ (constant (F := Ideal) S_ .f32 0xFF800000#32)) reduceWindows_S512x256x256_S512x256x256_w1s1p0_0_w256s1p255_0_w1s1p0_0 h_S_) (broadcastInDim S_ ![] bcast_S_S_ (constant (F := Ideal) S_ .f32 0xFF800000#32)) reduceWindows_S512x256x256_S512x256x256_w1s1p0_0_w1s1p0_0_w256s1p255_0 h_S_) (Host.reduceWindow FloatOps.maximumf ![1, 1, 256] ![1, 1, 1] ![0, 0, 255] ![0, 0, 0] (Host.reduceWindow FloatOps.maximumf ![1, 256, 1] ![1, 1, 1] ![0, 255, 0] ![0, 0, 0] x (broadcastInDim S_ ![] bcast_S_S_ (constant (F := Ideal) S_ .f32 0xFF800000#32)) reduceWindows_S512x256x256_S512x256x256_w1s1p0_0_w256s1p255_0_w1s1p0_0 h_S_) (broadcastInDim S_ ![] bcast_S_S_ (constant (F := Ideal) S_ .f32 0xFF800000#32)) reduceWindows_S512x256x256_S512x256x256_w1s1p0_0_w1s1p0_0_w256s1p255_0 h_S_)
      = Cert.Spec.G (n0 := 512) x := by
  have hH : Host.reduceWindow (FloatOps.maximumf (F := Ideal) (φ := .f32)) ![1, 256, 1] ![1, 1, 1] ![0, 255, 0] ![0, 0, 0] x
      (broadcastInDim S_ ![] bcast_S_S_ (constant (F := Ideal) S_ .f32 0xFF800000#32))
      reduceWindows_S512x256x256_S512x256x256_w1s1p0_0_w256s1p255_0_w1s1p0_0 h_S_ = Cert.Spec.cummaxH (n0 := 512) x :=
    Cert.Spec.eq_cummaxH fun c h w => rows_isPrefMax x _ init_first c h w
  have hW : Host.reduceWindow (FloatOps.maximumf (F := Ideal) (φ := .f32)) ![1, 1, 256] ![1, 1, 1] ![0, 0, 255] ![0, 0, 0]
      (Cert.Spec.cummaxH (n0 := 512) x) (broadcastInDim S_ ![] bcast_S_S_ (constant (F := Ideal) S_ .f32 0xFF800000#32))
      reduceWindows_S512x256x256_S512x256x256_w1s1p0_0_w1s1p0_0_w256s1p255_0 h_S_
        = Cert.Spec.cummaxW (n0 := 512) (Cert.Spec.cummaxH x) :=
    Cert.Spec.eq_cummaxW fun c h w => cols_isPrefMax _ _ init_first c h w
  rw [hH, hW]
  rfl

end Cert.RefValue

end
-- ==== Proof.lean ====
/-
  The claim: twice the running maximum over rows and then columns of a stack of 512 images of 256 × 256, computed by a
  kernel sixteen images at a time with two doubling scans, against the same quantity computed on the host with two
  window folds.

  At the ideal values a float is an extended real, `maximumf` is `max`, and the literal `0xFF800000` is `-∞`, the least
  element — the maximum of nothing. Both programs end with the result array at `Cert.Spec.G x`, where
  `G x (c, h, w) = M + M` and `M` is the greatest of `x (c, h', w')` over `h' ≤ h`, `w' ≤ w`:
   * the kernel (`Cert.KernelValue.run`): a scan step with shift `L` doubles the width of the window each entry is
     the maximum of; eight steps with shifts 1, 2, …, 128 reach width 256, the whole prefix, first down the rows and
     then along the columns; images do not interact, so the 32 blocks of sixteen images are the blocks of one function;
   * the reference (`Cert.RefValue.result_eq`): a window of 256 positions ending at the entry, the positions before
     the start of the axis holding `-∞`, folded with `max` from `-∞`, is the greatest entry of the prefix.
  Only the order laws of `max` are used — no finiteness of the inputs — and the final `M + M` is the same term on both sides.

  The frames are the programs' runs with the result forgotten; the idealization rewrote nothing, so `preserves` is `True`.
-/
import proofs.«150235_j66623532695961_1_alg».proof.Defs
import proofs.«150235_j66623532695961_1_alg».proof.Proof.Gen.Kernel
import proofs.«150235_j66623532695961_1_alg».proof.Proof.Gen.Kernel.Skeleton
import proofs.«150235_j66623532695961_1_alg».proof.Proof.Gen.Kernel.Launch
import proofs.«150235_j66623532695961_1_alg».proof.Proof.Gen.Kernel.Points
import proofs.«150235_j66623532695961_1_alg».proof.Proof.Gen.KernelIdeal
import proofs.«150235_j66623532695961_1_alg».proof.Proof.Gen.KernelIdeal.Skeleton
import proofs.«150235_j66623532695961_1_alg».proof.Proof.Gen.KernelIdeal.Launch
import proofs.«150235_j66623532695961_1_alg».proof.Proof.Gen.KernelIdeal.Points
import proofs.«150235_j66623532695961_1_alg».proof.Proof.Gen.ReferenceIdeal
import proofs.«150235_j66623532695961_1_alg».proof.Proof.Gen.Pre_finite_inputs
import proofs.«150235_j66623532695961_1_alg».proof.Proof.KernelFrameP
import proofs.«150235_j66623532695961_1_alg».proof.Proof.KernelIdealFrameP
import proofs.«150235_j66623532695961_1_alg».proof.Proof.ReferenceRunP
import proofs.«150235_j66623532695961_1_alg».proof.Proof.KernelValue
import proofs.«150235_j66623532695961_1_alg».proof.Proof.RefValue
import Idealize.ShloMosaic.Adequacy
import Idealize.ShloMosaic.Init

noncomputable section

namespace Cert.Proof

open Idealize.ShloMosaic Idealize.SL.Sem

theorem frame_p : Cert.frame_Kernel := fun m ρ _ => Cert.Kernel.GenP.frame m ρ

theorem frame_pi : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation: nothing to preserve. -/
theorem preserves : Cert.preserves_Kernel_KernelIdeal := trivial

/-- Both runs end with the result at `G` of the argument: the kernel's by its value leg, the reference's by its run and
    `result_eq`, the two arguments agreeing. -/
theorem algebraic : Cert.algebraic_KernelIdeal_ReferenceIdeal := by
  intro m ρ m' ρ' _ hagree
  refine ⟨fun c => Cert.Spec.G (n0 := 512) (m ((c.tc : Thread Cert.KernelIdeal.nD Cert.KernelIdeal.τ).loc Cert.KernelIdeal.main_arg0)),
    Cert.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [hagree c]
  exact Cert.RefValue.result_eq _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
